-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x256 : Shape := ⟨3, ![8, 512, 256]⟩
abbrev S8x512x512 : Shape := ⟨3, ![8, 512, 512]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x512x256 .f32) (main_arg1 : FVec F S8x512x512 .f32) (main_arg2 : FVec F S256x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S8x512x256 : Shape := ⟨3, ![8, 512, 256]⟩
abbrev S8x512x512 : Shape := ⟨3, ![8, 512, 512]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S1x1 : Shape := ⟨2, ![1, 1]⟩
abbrev S8x1x1 : Shape := ⟨3, ![8, 1, 1]⟩
abbrev S1x512x256 : Shape := ⟨3, ![1, 512, 256]⟩
abbrev S1x512x512 : Shape := ⟨3, ![1, 512, 512]⟩
abbrev S1x1x1 : Shape := ⟨3, ![1, 1, 1]⟩
abbrev S512x512 : Shape := ⟨2, ![512, 512]⟩
abbrev S512x256 : Shape := ⟨2, ![512, 256]⟩
abbrev S512x64 : Shape := ⟨2, ![512, 64]⟩
abbrev S1x512 : Shape := ⟨2, ![1, 512]⟩
abbrev S8x1 : Shape := ⟨2, ![8, 1]⟩

abbrev nBuf : Space → Nat
  | .hbm => 20
  | .vmem => 16
  | .smem => 0
  | _ => 0

abbrev bufTy : (tb : Table) → Fin (tcTables nBuf tb) → BufTy
  | .hbm, ⟨0, _⟩ => ⟨S8x512x256, .f32⟩
  | .hbm, ⟨1, _⟩ => ⟨S8x512x512, .f32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S8x512x512, .bf16⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S1x64, .f32⟩
  | .hbm, ⟨17, _⟩ => ⟨S1x1, .f32⟩
  | .hbm, ⟨18, _⟩ => ⟨S8x1x1, .f32⟩
  | .hbm, ⟨19, _⟩ => ⟨S8x1, .f32⟩
  | .local _ .vmem, ⟨0, _⟩ => ⟨S1x512x256, .f32⟩
  | .local _ .vmem, ⟨1, _⟩ => ⟨S1x512x256, .f32⟩
  | .local _ .vmem, ⟨2, _⟩ => ⟨S1x512x512, .bf16⟩
  | .local _ .vmem, ⟨3, _⟩ => ⟨S1x512x512, .bf16⟩
  | .local _ .vmem, ⟨4, _⟩ => ⟨S256x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S64x1, .f32⟩
  | .local _ .vmem, ⟨13, _⟩ => ⟨S1x1, .f32⟩
  | .local _ .vmem, ⟨14, _⟩ => ⟨S1x1x1, .f32⟩
  | .local _ .vmem, ⟨15, _⟩ => ⟨S1x1x1, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S64_S1x64 : S64.ShapeCasts S1x64
  shapeCasts_S1_S1x1 : S1.ShapeCasts S1x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x64_S64x64_0_0 : ∀ a, (![0, 0] : Fin 2 → Nat) a + S64x64.size a ≤ S64x64.size a
  h_S64x64 : 0 < S64x64.numel
  slices_S512x512_o511_0_S1x512 : S512x512.Slices ![511, 0] S1x512
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S8x1x1_S8x1 : S8x1x1.ShapeCasts S8x1
  dot_S512x256_S256x64_S512x64_1_0_0_1_n_n_wf : DotDims.WF S512x256 S256x64 S512x64 [1] [0] [0] [1] [] []
  dot_S512x512_S512x64_S512x64_1_0_0_1_n_n_wf : DotDims.WF S512x512 S512x64 S512x64 [1] [0] [0] [1] [] []
  dot_S512x64_S64x64_S512x64_1_0_0_1_n_n_wf : DotDims.WF S512x64 S64x64 S512x64 [1] [0] [0] [1] [] []
  dot_S1x512_S512x64_S1x64_1_0_0_1_n_n_wf : DotDims.WF S1x512 S512x64 S1x64 [1] [0] [0] [1] [] []
  dot_S1x64_S64x64_S1x64_1_0_0_1_n_n_wf : DotDims.WF S1x64 S64x64 S1x64 [1] [0] [0] [1] [] []
  dot_S1x64_S64x1_S1x1_1_0_0_1_n_n_wf : DotDims.WF S1x64 S64x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x512x256.size a
  hwx0_0 : ∀ i : grid0.Coords, EltTy.bits .f32 = 32 ∨ (Rect.block (s := S8x512x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .bf16 = 32 ∨ (Rect.block (s := S8x512x512) S1x512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S256x64.size a
  hwx0_2 : ∀ i : grid0.Coords, EltTy.bits .f32 = 32 ∨ (Rect.block (s := S256x64) S256x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S8x1x1.size a
  hwx0_12 : ∀ i : grid0.Coords, EltTy.bits .f32 = 32 ∨ (Rect.block (s := S8x1x1) S1x1x1.size (cc0_transform_12 i) (hinb0_12 i)).WholeWords (EltTy.packing .f32)

variable [Facts₀]

def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S1x512_S512x64_S1x64_1_0_0_1_n_n : DotDims S1x512 S512x64 S1x64 where
  lhsContracting := [1]
  rhsContracting := [0]
  lhsNonContracting := [0]
  rhsNonContracting := [1]
  lhsBatch := []
  rhsBatch := []
  wf := dot_S1x512_S512x64_S1x64_1_0_0_1_n_n_wf
def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S1x64_S64x1_S1x1_1_0_0_1_n_n : DotDims S1x64 S64x1 S1x1 where
  lhsContracting := [1]
  rhsContracting := [0]
  lhsNonContracting := [0]
  rhsNonContracting := [1]
  lhsBatch := []
  rhsBatch := []
  wf := dot_S1x64_S64x1_S1x1_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S1x1x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x512x256 : Shape := ⟨3, ![8, 512, 256]⟩
abbrev S8x512x512 : Shape := ⟨3, ![8, 512, 512]⟩
abbrev S256x64 : Shape := ⟨2, ![256, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S8x512x64 : Shape := ⟨3, ![8, 512, 64]⟩
abbrev S1x1x64 : Shape := ⟨3, ![1, 1, 64]⟩
abbrev S_ : Shape := ⟨0, ![]⟩
abbrev S8x1x64 : Shape := ⟨3, ![8, 1, 64]⟩
abbrev S8x64 : Shape := ⟨2, ![8, 64]⟩
abbrev S8x1 : Shape := ⟨2, ![8, 1]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S8x512x256, .f32⟩
  | .hbm, ⟨1, _⟩ => ⟨S8x512x512, .f32⟩
  | .hbm, ⟨2, _⟩ => ⟨S256x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S8x512x64, .f32⟩
  | .hbm, ⟨13, _⟩ => ⟨S8x512x64, .f32⟩
  | .hbm, ⟨14, _⟩ => ⟨S1x1x64, .f32⟩
  | .hbm, ⟨15, _⟩ => ⟨S8x512x64, .f32⟩
  | .hbm, ⟨16, _⟩ => ⟨S8x512x64, .f32⟩
  | .hbm, ⟨17, _⟩ => ⟨S_, .f32⟩
  | .hbm, ⟨18, _⟩ => ⟨S8x512x64, .f32⟩
  | .hbm, ⟨19, _⟩ => ⟨S8x512x64, .f32⟩
  | .hbm, ⟨20, _⟩ => ⟨S8x512x64, .f32⟩
  | .hbm, ⟨21, _⟩ => ⟨S8x512x64, .f32⟩
  | .hbm, ⟨22, _⟩ => ⟨S1x1x64, .f32⟩
  | .hbm, ⟨23, _⟩ => ⟨S8x512x64, .f32⟩
  | .hbm, ⟨24, _⟩ => ⟨S8x512x64, .f32⟩
  | .hbm, ⟨25, _⟩ => ⟨S_, .f32⟩
  | .hbm, ⟨26, _⟩ => ⟨S8x512x64, .f32⟩
  | .hbm, ⟨27, _⟩ => ⟨S8x512x64, .f32⟩
  | .hbm, ⟨28, _⟩ => ⟨S8x512x64, .f32⟩
  | .hbm, ⟨29, _⟩ => ⟨S8x512x64, .f32⟩
  | .hbm, ⟨30, _⟩ => ⟨S1x1x64, .f32⟩
  | .hbm, ⟨31, _⟩ => ⟨S8x512x64, .f32⟩
  | .hbm, ⟨32, _⟩ => ⟨S8x512x64, .f32⟩
  | .hbm, ⟨33, _⟩ => ⟨S_, .f32⟩
  | .hbm, ⟨34, _⟩ => ⟨S8x512x64, .f32⟩
  | .hbm, ⟨35, _⟩ => ⟨S8x512x64, .f32⟩
  | .hbm, ⟨36, _⟩ => ⟨S8x512x64, .f32⟩
  | .hbm, ⟨37, _⟩ => ⟨S8x512x64, .f32⟩
  | .hbm, ⟨38, _⟩ => ⟨S1x1x64, .f32⟩
  | .hbm, ⟨39, _⟩ => ⟨S8x512x64, .f32⟩
  | .hbm, ⟨40, _⟩ => ⟨S8x512x64, .f32⟩
  | .hbm, ⟨41, _⟩ => ⟨S_, .f32⟩
  | .hbm, ⟨42, _⟩ => ⟨S8x512x64, .f32⟩
  | .hbm, ⟨43, _⟩ => ⟨S8x512x64, .f32⟩
  | .hbm, ⟨44, _⟩ => ⟨S8x1x64, .f32⟩
  | .hbm, ⟨45, _⟩ => ⟨S8x64, .f32⟩
  | .hbm, ⟨46, _⟩ => ⟨S8x1, .f32⟩
  | .hbm, ⟨47, _⟩ => ⟨S1x1, .f32⟩
  | .hbm, ⟨48, _⟩ => ⟨S8x1, .f32⟩
  | .hbm, ⟨49, _⟩ => ⟨S8x1, .f32⟩
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call3_cst : Ref sig .tc := ⟨.hbm, 41, rfl⟩
abbrev main_call3_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x512x64_0_1_2 : S1x1x64.BroadcastsInDim S8x512x64 (![0, 1, 2] : Fin 3 → Fin S8x512x64.rank)
  bcast_S_S8x512x64 : S_.BroadcastsInDim S8x512x64 (![] : Fin 0 → Fin S8x512x64.rank)
  slices_S8x512x64_S8x1x64_0_511_0 : S8x512x64.Slices ![0, 511, 0] S8x1x64
  shapeCasts_S8x1x64_S8x64 : S8x1x64.ShapeCasts S8x64
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  dot_S8x512x256_S256x64_S8x512x64_2_0_01_1_n_n_wf : DotDims.WF S8x512x256 S256x64 S8x512x64 [2] [0] [0, 1] [1] [] []
  dot_S8x512x512_S8x512x64_S8x512x64_2_1_1_2_0_0_wf : DotDims.WF S8x512x512 S8x512x64 S8x512x64 [2] [1] [1] [2] [0] [0]
  dot_S8x512x64_S64x64_S8x512x64_2_0_01_1_n_n_wf : DotDims.WF S8x512x64 S64x64 S8x512x64 [2] [0] [0, 1] [1] [] []
  dot_S8x64_S64x1_S8x1_1_0_0_1_n_n_wf : DotDims.WF S8x64 S64x1 S8x1 [1] [0] [0] [1] [] []

variable [Facts₀]

def dot_S8x512x256_S256x64_S8x512x64_2_0_01_1_n_n : DotDims S8x512x256 S256x64 S8x512x64 where
  lhsContracting := [2]
  rhsContracting := [0]
  lhsNonContracting := [0, 1]
  rhsNonContracting := [1]
  lhsBatch := []
  rhsBatch := []
  wf := dot_S8x512x256_S256x64_S8x512x64_2_0_01_1_n_n_wf
def dot_S8x512x512_S8x512x64_S8x512x64_2_1_1_2_0_0 : DotDims S8x512x512 S8x512x64 S8x512x64 where
  lhsContracting := [2]
  rhsContracting := [1]
  lhsNonContracting := [1]
  rhsNonContracting := [2]
  lhsBatch := [0]
  rhsBatch := [0]
  wf := dot_S8x512x512_S8x512x64_S8x512x64_2_1_1_2_0_0_wf
def dot_S8x512x64_S64x64_S8x512x64_2_0_01_1_n_n : DotDims S8x512x64 S64x64 S8x512x64 where
  lhsContracting := [2]
  rhsContracting := [0]
  lhsNonContracting := [0, 1]
  rhsNonContracting := [1]
  lhsBatch := []
  rhsBatch := []
  wf := dot_S8x512x64_S64x64_S8x512x64_2_0_01_1_n_n_wf
def dot_S8x64_S64x1_S8x1_1_0_0_1_n_n : DotDims S8x64 S64x1 S8x1 where
  lhsContracting := [1]
  rhsContracting := [0]
  lhsNonContracting := [0]
  rhsNonContracting := [1]
  lhsBatch := []
  rhsBatch := []
  wf := dot_S8x64_S64x1_S8x1_1_0_0_1_n_n_wf

class Facts : Prop extends Facts₀ where

variable [Facts]
-- ==== Proof.GcnLaw.lean ====
/-
  Graph convolution on the extended reals, and the law that lets the last layer be evaluated at one node.

  A layer sends node features `h` (one row per node) to `max (a · (h · w) + b, 0)`: the features are mixed by the
  weights `w`, averaged over the graph by the adjacency matrix `a`, shifted by the bias `b` and rectified.
  Only ONE node's row of the last layer may be wanted. That row is `a(n, ·) · (h · w)`, and it can be computed as
  `(a(n, ·) · h) · w`: contract the adjacency row with the features first, a single row, and only then mix by the weights.
  The two agree by distributivity and by exchanging the two finite sums — which on the extended reals holds when the
  entries are real numbers (products distribute over sums of reals; at infinities they need not). Real entries stay real
  through a layer: finite sums, products and maxima of reals are real.
-/
import Idealize.ShloMosaic.PureOps.Ideal

noncomputable section

namespace Gcn

open Finset

/-- An extended real that is a real number. -/
def IsReal (x : EReal) : Prop := ∃ r : ℝ, x = (r : EReal)

theorem IsReal.zero : IsReal 0 := ⟨0, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  obtain ⟨r, rfl⟩ := hx; obtain ⟨s, rfl⟩ := hy
  exact ⟨Max.max r s, (EReal.coe_strictMono.monotone.map_max).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Contracting a row with a product of matrices: the row may be contracted with the left factor first. For real
    entries, by distributivity and the exchange of the two sums. -/
theorem sum_mul_sum_exchange {M K : Type*} [Fintype M] [Fintype K] (a : M → EReal) (h : M → K → EReal) (w : K → EReal)
    (ha : ∀ m, IsReal (a m)) (hh : ∀ m f, IsReal (h m f)) (hw : ∀ f, IsReal (w f)) :
    ∑ m, a m * ∑ f, h m f * w f = ∑ f, (∑ m, a m * h m f) * w f := by
  choose a' ha' using ha
  choose h' hh' using hh
  choose w' hw' using hw
  obtain rfl : a = fun m => (a' m : EReal) := funext ha'
  obtain rfl : h = fun m f => (h' m f : EReal) := funext fun m => funext fun f => hh' m f
  obtain rfl : w = fun f => (w' f : EReal) := funext hw'
  simp only [← EReal.coe_mul, ← coe_sum]
  congr 1
  simp only [Finset.mul_sum, Finset.sum_mul]
  rw [Finset.sum_comm]
  exact Finset.sum_congr rfl fun f _ => Finset.sum_congr rfl fun m _ => by ring

variable {N K H : Type*} [Fintype N] [Fintype K] [Fintype H]

/-- A layer before the rectifier: `a · (h · w) + b`, at node `n` and output feature `o`. -/
def pre (a : N → N → EReal) (h : N → K → EReal) (w : K → H → EReal) (b : H → EReal) (n : N) (o : H) : EReal :=
  (∑ m, a n m * ∑ f, h m f * w f o) + b o

/-- The rectifier, entry by entry. -/
def relu {I J : Type*} (v : I → J → EReal) (i : I) (j : J) : EReal := Max.max (v i j) 0

/-- One node's row of a layer before the rectifier, with the adjacency row contracted with the features first:
    `(a(n, ·) · h) · w + b`. -/
def preRow (arow : N → EReal) (h : N → K → EReal) (w : K → H → EReal) (b : H → EReal) (o : H) : EReal :=
  (∑ f, (∑ m, arow m * h m f) * w f o) + b o

/-- The final linear head on one row: `r · wf + bf`. -/
def head (r : H → EReal) (wf : H → EReal) (bf : EReal) : EReal := (∑ j, r j * wf j) + bf

theorem pre_isReal {a : N → N → EReal} {h : N → K → EReal} {w : K → H → EReal} {b : H → EReal}
    (ha : ∀ n m, IsReal (a n m)) (hh : ∀ m f, IsReal (h m f)) (hw : ∀ f o, IsReal (w f o)) (hb : ∀ o, IsReal (b o))
    (n : N) (o : H) : IsReal (pre a h w b n o) :=
  (IsReal.sum _ _ fun m _ => (ha n m).mul (IsReal.sum _ _ fun f _ => (hh m f).mul (hw f o))).add (hb o)

theorem relu_isReal {I J : Type*} {v : I → J → EReal} (hv : ∀ i j, IsReal (v i j)) (i : I) (j : J) : IsReal (relu v i j) :=
  (hv i j).max IsReal.zero

/-- The row computed with the adjacency row contracted first is the layer's row, for real entries. -/
theorem preRow_eq_pre (a : N → N → EReal) (h : N → K → EReal) (w : K → H → EReal) (b : H → EReal) (n : N) (o : H)
    (ha : ∀ m, IsReal (a n m)) (hh : ∀ m f, IsReal (h m f)) (hw : ∀ f, IsReal (w f o)) :
    preRow (a n) h w b o = pre a h w b n o := by
  unfold preRow pre
  rw [sum_mul_sum_exchange (a n) h (fun f => w f o) ha hh hw]

/-- Three rectified layers over one graph. -/
def hidden (a : N → N → EReal) (x : N → K → EReal) (w1 : K → H → EReal) (b1 : H → EReal) (w2 : H → H → EReal) (b2 : H → EReal)
    (w3 : H → H → EReal) (b3 : H → EReal) : N → H → EReal :=
  relu (pre a (relu (pre a (relu (pre a x w1 b1)) w2 b2)) w3 b3)

theorem hidden_isReal {a : N → N → EReal} {x : N → K → EReal} {w1 : K → H → EReal} {b1 : H → EReal} {w2 : H → H → EReal}
    {b2 : H → EReal} {w3 : H → H → EReal} {b3 : H → EReal}
    (ha : ∀ n m, IsReal (a n m)) (hx : ∀ m f, IsReal (x m f)) (hw1 : ∀ f o, IsReal (w1 f o)) (hb1 : ∀ o, IsReal (b1 o))
    (hw2 : ∀ f o, IsReal (w2 f o)) (hb2 : ∀ o, IsReal (b2 o)) (hw3 : ∀ f o, IsReal (w3 f o)) (hb3 : ∀ o, IsReal (b3 o))
    (n : N) (o : H) : IsReal (hidden a x w1 b1 w2 b2 w3 b3 n o) :=
  relu_isReal (pre_isReal ha (relu_isReal (pre_isReal ha (relu_isReal (pre_isReal ha hx hw1 hb1)) hw2 hb2)) hw3 hb3) n o

/-- The network's output at node `n` with the fourth layer evaluated at that node only (the adjacency row contracted
    with the hidden features first). -/
def outPruned (a : N → N → EReal) (h3 : N → H → EReal) (w4 : H → H → EReal) (b4 : H → EReal) (wf : H → EReal) (bf : EReal)
    (n : N) : EReal :=
  head (fun j => Max.max (preRow (a n) h3 w4 b4 j) 0) wf bf

/-- The network's output at node `n` read off the whole fourth layer. -/
def outFull (a : N → N → EReal) (h3 : N → H → EReal) (w4 : H → H → EReal) (b4 : H → EReal) (wf : H → EReal) (bf : EReal)
    (n : N) : EReal :=
  head (fun j => relu (pre a h3 w4 b4) n j) wf bf

theorem outPruned_eq_outFull (a : N → N → EReal) (h3 : N → H → EReal) (w4 : H → H → EReal) (b4 : H → EReal) (wf : H → EReal)
    (bf : EReal) (n : N) (ha : ∀ m, IsReal (a n m)) (hh : ∀ m f, IsReal (h3 m f)) (hw : ∀ f o, IsReal (w4 f o)) :
    outPruned a h3 w4 b4 wf bf n = outFull a h3 w4 b4 wf bf n := by
  unfold outPruned outFull relu
  congr 1
  funext j
  rw [preRow_eq_pre a h3 w4 b4 n j ha hh fun f => hw f j]

end Gcn

end
-- ==== Proof.GcnArrays.lean ====
/-
  The network as a function of its argument arrays.

  The arguments are the node features x[8, 512, 256] and adjacency matrices adj[8, 512, 512] of eight graphs, the weights
  and biases of four graph-convolution layers and of the final linear head. Graph g's output is the head applied to the
  rectified fourth layer's row at the last node, 511. `netPruned` evaluates the fourth layer at that node only (the
  adjacency row contracted with the hidden features first); `netFull` reads the row off the whole fourth layer. For
  arrays of real numbers the two agree (Gcn.outPruned_eq_outFull: the hidden features of real inputs are real).
-/
import proofs.«153388_g68341519614684_cont_sun_c4_778_10_alg».proof.Proof.GcnLaw
import Idealize.ShloMosaic.Lib.ValueIdx

noncomputable section

namespace Gcn

open Idealize.ShloMosaic Idealize.ShloMosaic.ValueIdx

/-- A matrix as a function of its row and column. -/
def mat {a b : Nat} (v : (⟨2, ![a, b]⟩ : Shape).Idx → EReal) (i : Fin a) (j : Fin b) : EReal := v (ix2 i j)
/-- The one row of a [1, b] array. -/
def row {b : Nat} (v : (⟨2, ![1, b]⟩ : Shape).Idx → EReal) (j : Fin b) : EReal := v (ix2 0 j)
/-- The one column of an [a, 1] array. -/
def col {a : Nat} (v : (⟨2, ![a, 1]⟩ : Shape).Idx → EReal) (i : Fin a) : EReal := v (ix2 i 0)
/-- A [1, a, b] block as a matrix. -/
def blk {a b : Nat} (v : (⟨3, ![1, a, b]⟩ : Shape).Idx → EReal) (i : Fin a) (j : Fin b) : EReal := v (ix3 0 i j)
/-- Graph `g`'s matrix out of a batch [B, a, c]. -/
def slab {B a c : Nat} (v : (⟨3, ![B, a, c]⟩ : Shape).Idx → EReal) (g : Fin B) (i : Fin a) (j : Fin c) : EReal := v (ix3 g i j)
/-- A vector as a function of its position. -/
def vec {a : Nat} (v : (⟨1, ![a]⟩ : Shape).Idx → EReal) (i : Fin a) : EReal := v (ix1 i)

/-- Every entry of the array is a real number. -/
def AllReal {s : Shape} (v : s.Idx → EReal) : Prop := ∀ i, IsReal (v i)

section Net

variable (x : (⟨3, ![8, 512, 256]⟩ : Shape).Idx → EReal) (adj : (⟨3, ![8, 512, 512]⟩ : Shape).Idx → EReal)
  (w1 : (⟨2, ![256, 64]⟩ : Shape).Idx → EReal) (b1 : (⟨1, ![64]⟩ : Shape).Idx → EReal)
  (w2 : (⟨2, ![64, 64]⟩ : Shape).Idx → EReal) (b2 : (⟨1, ![64]⟩ : Shape).Idx → EReal)
  (w3 : (⟨2, ![64, 64]⟩ : Shape).Idx → EReal) (b3 : (⟨1, ![64]⟩ : Shape).Idx → EReal)
  (w4 : (⟨2, ![64, 64]⟩ : Shape).Idx → EReal) (b4 : (⟨1, ![64]⟩ : Shape).Idx → EReal)
  (wf : (⟨2, ![64, 1]⟩ : Shape).Idx → EReal) (bf : (⟨1, ![1]⟩ : Shape).Idx → EReal)

/-- Graph `g`'s hidden features after the three rectified layers. -/
def hiddenOf (g : Fin 8) : Fin 512 → Fin 64 → EReal :=
  hidden (slab adj g) (slab x g) (mat w1) (vec b1) (mat w2) (vec b2) (mat w3) (vec b3)

/-- Graph `g`'s output with the fourth layer evaluated at the last node only. -/
def netPruned (g : Fin 8) : EReal :=
  outPruned (slab adj g) (hiddenOf x adj w1 b1 w2 b2 w3 b3 g) (mat w4) (vec b4) (col wf) (bf (ix1 0)) (511 : Fin 512)

/-- Graph `g`'s output read off the whole fourth layer at the last node. -/
def netFull (g : Fin 8) : EReal :=
  outFull (slab adj g) (hiddenOf x adj w1 b1 w2 b2 w3 b3 g) (mat w4) (vec b4) (col wf) (bf (ix1 0)) (511 : Fin 512)

theorem netPruned_eq_netFull (hx : AllReal x) (hadj : AllReal adj) (hw1 : AllReal w1) (hb1 : AllReal b1) (hw2 : AllReal w2)
    (hb2 : AllReal b2) (hw3 : AllReal w3) (hb3 : AllReal b3) (hw4 : AllReal w4) (g : Fin 8) :
    netPruned x adj w1 b1 w2 b2 w3 b3 w4 b4 wf bf g = netFull x adj w1 b1 w2 b2 w3 b3 w4 b4 wf bf g :=
  outPruned_eq_outFull _ _ _ _ _ _ _ (fun _ => hadj _)
    (fun m f => hidden_isReal (fun _ _ => hadj _) (fun _ _ => hx _) (fun _ _ => hw1 _) (fun _ => hb1 _) (fun _ _ => hw2 _)
      (fun _ => hb2 _) (fun _ _ => hw3 _) (fun _ => hb3 _) m f)
    (fun _ _ => hw4 _)

end Net

end Gcn

end
-- ==== Proof.LibPlainDot.lean ====
/-
  A plain matrix product's dimension numbers — the left operand's axis 1 contracted with the right operand's axis 0, no batch
  axis — read at an index. For such a record the left operand is read at (row, k) and the right at (k, column), so at the
  extended reals a product into the zero accumulator is the sum over k of x(row, k) · w(k, column), in any order and grouping
  (addition of extended reals is commutative and associative). Nothing here depends on a program: the record's four
  coordinate facts are hypotheses, which each use site proves from its own record by unfolding.
-/
import Idealize.ShloMosaic.Lib.ValueIdx
import Idealize.ShloMosaic.PureOps.Ideal.Laws

noncomputable section

namespace PlainDot

open Idealize.ShloMosaic Idealize.ShloMosaic.ValueIdx

/-- The dimension numbers `D` are those of a plain [M, K] × [K, N] product: one contracted axis of extent K; the left
    operand read at (row of the result, contraction position) and the right at (contraction position, column). -/
structure IsPlain {M K N : Nat} (D : DotDims ⟨2, ![M, K]⟩ ⟨2, ![K, N]⟩ ⟨2, ![M, N]⟩) : Prop where
  rank : D.contr.rank = 1
  size : D.contr.size ⟨0, by omega⟩ = K
  lhs0 : ∀ (i : (⟨2, ![M, N]⟩ : Shape).Idx) (q : D.contr.Idx), (D.lhsIdx i q 0).val = (i 0).val
  lhs1 : ∀ (i : (⟨2, ![M, N]⟩ : Shape).Idx) (q : D.contr.Idx), (D.lhsIdx i q 1).val = (q ⟨0, by omega⟩).val
  rhs0 : ∀ (i : (⟨2, ![M, N]⟩ : Shape).Idx) (q : D.contr.Idx), (D.rhsIdx i q 0).val = (q ⟨0, by omega⟩).val
  rhs1 : ∀ (i : (⟨2, ![M, N]⟩ : Shape).Idx) (q : D.contr.Idx), (D.rhsIdx i q 1).val = (i 1).val

variable {M K N : Nat} {φ₁ φ₂ : FTy}

/-- The two operand indices at result index (r, j) and contraction position k. -/
theorem IsPlain.lhsIdx_eq {D : DotDims ⟨2, ![M, K]⟩ ⟨2, ![K, N]⟩ ⟨2, ![M, N]⟩} (h : IsPlain D) (r : Fin M) (j : Fin N) (k : Fin K) :
    D.lhsIdx (ix2 r j) ((contrEquiv1 D K h.rank h.size).symm k) = ix2 r k :=
  funext fun a => Fin.ext (by
    match a with
    | ⟨0, _⟩ => exact h.lhs0 _ _
    | ⟨1, _⟩ => exact (h.lhs1 _ _).trans (contrEquiv1_symm_val D K h.rank h.size k))

theorem IsPlain.rhsIdx_eq {D : DotDims ⟨2, ![M, K]⟩ ⟨2, ![K, N]⟩ ⟨2, ![M, N]⟩} (h : IsPlain D) (r : Fin M) (j : Fin N) (k : Fin K) :
    D.rhsIdx (ix2 r j) ((contrEquiv1 D K h.rank h.size).symm k) = ix2 k j :=
  funext fun a => Fin.ext (by
    match a with
    | ⟨0, _⟩ => exact (h.rhs0 _ _).trans (contrEquiv1_symm_val D K h.rank h.size k)
    | ⟨1, _⟩ => exact h.rhs1 _ _)

/-- A matrix product into the zero accumulator, at the extended reals, read at (r, j): the sum over the contracted
    axis of x(r, k) · w(k, j). -/
theorem matmul_zero_apply (D : DotDims ⟨2, ![M, K]⟩ ⟨2, ![K, N]⟩ ⟨2, ![M, N]⟩) (h : IsPlain D) (prec : Option ContractPrecision)
    (x : FVec Ideal ⟨2, ![M, K]⟩ φ₁) (w : FVec Ideal ⟨2, ![K, N]⟩ φ₂) (r : Fin M) (j : Fin N) :
    FloatOps.matmul D prec x w (constant (F := Ideal) ⟨2, ![M, N]⟩ .f32 0x00000000#32) (ix2 r j)
      = ∑ k : Fin K, x (ix2 r k) * w (ix2 k j) := by
  rw [Ideal.matmul_constant_zero_apply, ← Equiv.sum_comp (contrEquiv1 D K h.rank h.size).symm]
  refine Finset.sum_congr rfl fun k _ => ?_
  rw [h.lhsIdx_eq r j k, h.rhsIdx_eq r j k]

end PlainDot

end
-- ==== Proof.KernelBody.lean ====
/-
  The kernel body's arithmetic at the extended reals, read entry by entry.

  Per graph the body holds the adjacency matrix and the node features as matrices, runs three rectified graph-convolution
  layers on them (each: features times weights, adjacency times that, plus the bias row spread down the rows, maximum
  with zero), then evaluates the fourth layer at the last node only — the adjacency matrix's last row contracted with the
  hidden features, that row times the fourth weights, plus bias, rectified — and applies the final linear head to that row.
  Every matrix product is a plain [M, K] × [K, N] product into a zero accumulator, so at the extended reals it is the sum
  over the contracted axis; changes of float format are the identity.
-/
import proofs.«153388_g68341519614684_cont_sun_c4_778_10_alg».proof.Proof.Gen.KernelIdeal.Skeleton
import proofs.«153388_g68341519614684_cont_sun_c4_778_10_alg».proof.Proof.GcnArrays
import proofs.«153388_g68341519614684_cont_sun_c4_778_10_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

open Gcn (mat row col blk)

/-! ## Every product of the body is a plain one -/

local macro "plain_dot " D:ident : term => `(
  { rank := rfl, size := rfl,
    lhs0 := fun i q => by
      unfold DotDims.lhsIdx
      rw [dif_neg (show ¬(0 : Fin 2) ∈ ($D).lhsBatch by decide), dif_pos (show (0 : Fin 2) ∈ ($D).lhsNonContracting by decide)]
      rfl
    lhs1 := fun i q => ($D).lhsIdx_val_of_single rfl i q
    rhs0 := fun i q => ($D).rhsIdx_val_of_single rfl i q
    rhs1 := fun i q => by
      unfold DotDims.rhsIdx
      rw [dif_neg (show ¬(1 : Fin 2) ∈ ($D).rhsBatch by decide), dif_pos (show (1 : Fin 2) ∈ ($D).rhsNonContracting by decide)]
      rfl })

theorem plain_x_w1 : PlainDot.IsPlain (M := 512) (K := 256) (N := 64) dot_S512x256_S256x64_S512x64_1_0_0_1_n_n :=
  plain_dot dot_S512x256_S256x64_S512x64_1_0_0_1_n_n
theorem plain_a_s : PlainDot.IsPlain (M := 512) (K := 512) (N := 64) dot_S512x512_S512x64_S512x64_1_0_0_1_n_n :=
  plain_dot dot_S512x512_S512x64_S512x64_1_0_0_1_n_n
theorem plain_h_w : PlainDot.IsPlain (M := 512) (K := 64) (N := 64) dot_S512x64_S64x64_S512x64_1_0_0_1_n_n :=
  plain_dot dot_S512x64_S64x64_S512x64_1_0_0_1_n_n
theorem plain_arow_h : PlainDot.IsPlain (M := 1) (K := 512) (N := 64) dot_S1x512_S512x64_S1x64_1_0_0_1_n_n :=
  plain_dot dot_S1x512_S512x64_S1x64_1_0_0_1_n_n
theorem plain_v_w4 : PlainDot.IsPlain (M := 1) (K := 64) (N := 64) dot_S1x64_S64x64_S1x64_1_0_0_1_n_n :=
  plain_dot dot_S1x64_S64x64_S1x64_1_0_0_1_n_n
theorem plain_h4_wf : PlainDot.IsPlain (M := 1) (K := 64) (N := 1) dot_S1x64_S64x1_S1x1_1_0_0_1_n_n :=
  plain_dot dot_S1x64_S64x1_S1x1_1_0_0_1_n_n

/-- A plain product into the zero accumulator read at (r, j): the sum over the contracted axis. -/
theorem plain_matmul {M K N : Nat} {φ₁ φ₂ : FTy} (D : DotDims ⟨2, ![M, K]⟩ ⟨2, ![K, N]⟩ ⟨2, ![M, N]⟩) (hD : PlainDot.IsPlain D)
    (x : FVec Ideal ⟨2, ![M, K]⟩ φ₁) (w : FVec Ideal ⟨2, ![K, N]⟩ φ₂) (r : Fin M) (j : Fin N) :
    matmul D none x w (constant (F := Ideal) ⟨2, ![M, N]⟩ .f32 0x00000000#32) (ix2 r j) = ∑ k : Fin K, x (ix2 r k) * w (ix2 k j) :=
  PlainDot.matmul_zero_apply D hD none x w r j

/-! ## One layer of the body -/

/-- Features times weights, adjacency times that, plus the bias row spread down the rows: a layer before its rectifier. -/
theorem mat_pre {K : Nat} (D : DotDims ⟨2, ![512, K]⟩ ⟨2, ![K, 64]⟩ ⟨2, ![512, 64]⟩) (hD : PlainDot.IsPlain D)
    (a : FVec Ideal S512x512 .bf16) (h : FVec Ideal ⟨2, ![512, K]⟩ .f32) (w : FVec Ideal ⟨2, ![K, 64]⟩ .f32)
    (b : FVec Ideal S1x64 .f32) :
    mat (addf (matmul dot_S512x512_S512x64_S512x64_1_0_0_1_n_n none a
        (truncf .bf16 (matmul D none h w (constant (F := Ideal) S512x64 .f32 0x00000000#32)) bitsLt_bf16_f32)
        (constant (F := Ideal) S512x64 .f32 0x00000000#32))
      (broadcastTo S512x64 (shapeCast S1x64 b shapeCasts_S1x64_S1x64) broadcasts_S1x64_S512x64))
    = Gcn.pre (mat a) (mat h) (mat w) (row b) := by
  funext n o
  unfold mat Gcn.pre row
  rw [addf_apply, plain_matmul _ plain_a_s a _ n o, broadcastTo_1b_ab_apply, shapeCast_self]
  congr 1
  refine Finset.sum_congr rfl fun m _ => ?_
  rw [truncf_apply, plain_matmul D hD h w m o]

/-- The maximum with the zero constant spread over a matrix is the rectifier. -/
theorem mat_relu {a b : Nat} (v : FVec Ideal ⟨2, ![a, b]⟩ .f32) :
    mat (maximumf v (broadcast ⟨2, ![a, b]⟩ (Scalar.ofBits (F := Ideal) .f32 0x00000000#32))) = Gcn.relu (mat v) := by
  funext i j
  unfold mat Gcn.relu
  rw [maximumf_apply, broadcast_apply]
  show max _ (Ideal.ofBits .f32 0x00000000#32) = _
  rw [Ideal.ofBits_zero_f32]

/-- A [1, a, b] block recast as a matrix. -/
theorem mat_dropUnit {a b : Nat} (x : (⟨3, ![1, a, b]⟩ : Shape).Idx → EReal)
    (h : (⟨3, ![1, a, b]⟩ : Shape).ShapeCasts ⟨2, ![a, b]⟩) : mat (shapeCast ⟨2, ![a, b]⟩ x h) = blk x := by
  funext i j
  exact shapeCast_1ab_ab_apply x h i j

theorem mat_pay2 (v0 : Vec Ideal S1x512x512 .bf16) : mat (k0_pay2 v0) = blk v0 := by
  unfold k0_pay2
  exact mat_dropUnit v0 _

/-- The third layer before its rectifier, over the first two rectified layers. -/
theorem mat_pay3 (v0 : Vec Ideal S1x512x512 .bf16) (v2 : Vec Ideal S1x512x256 .f32) (v4 : Vec Ideal S256x64 .f32) (v8 : Vec Ideal S1x64 .f32)
    (v14 : Vec Ideal S64x64 .f32) (v18 : Vec Ideal S1x64 .f32) (v24 : Vec Ideal S64x64 .f32) (v28 : Vec Ideal S1x64 .f32) :
    mat (k0_pay3 v0 v2 v4 v8 v14 v18 v24 v28)
      = Gcn.pre (blk v0) (Gcn.relu (Gcn.pre (blk v0) (Gcn.relu (Gcn.pre (blk v0) (blk v2) (mat v4) (row v8))) (mat v14) (row v18)))
          (mat v24) (row v28) := by
  unfold k0_pay3
  dsimp only
  rw [mat_pre _ plain_h_w, mat_relu, mat_pre _ plain_h_w, mat_relu, mat_pre _ plain_x_w1, mat_pay2, mat_dropUnit]

/-! ## The fourth layer at the last node, and the head -/

/-- The adjacency matrix's last row, cut out and widened to f32. -/
theorem row_lastRow (v1 : FVec Ideal S512x512 .bf16) :
    row (extf .f32 (extractStridedSlice S1x512 ![511, 0] v1 slices_S512x512_o511_0_S1x512) bitsLt_bf16_f32) = mat v1 (511 : Fin 512) := by
  funext m
  unfold row mat
  rw [extf_apply]
  exact slice2_axis0_apply 511 v1 _ 0 m 511 rfl

/-- A row times the features, that row times the weights, plus the bias row: the layer's row with the adjacency row
    contracted first. -/
theorem row_preRow (arow : FVec Ideal S1x512 .f32) (h : FVec Ideal S512x64 .f32) (w : FVec Ideal S64x64 .f32) (b : FVec Ideal S1x64 .f32) :
    row (addf (matmul dot_S1x64_S64x64_S1x64_1_0_0_1_n_n none
        (matmul dot_S1x512_S512x64_S1x64_1_0_0_1_n_n none arow h (constant (F := Ideal) S1x64 .f32 0x00000000#32)) w
        (constant (F := Ideal) S1x64 .f32 0x00000000#32)) (shapeCast S1x64 b shapeCasts_S1x64_S1x64))
      = Gcn.preRow (row arow) (mat h) (mat w) (row b) := by
  funext o
  unfold row Gcn.preRow mat
  rw [addf_apply, plain_matmul _ plain_v_w4 _ w 0 o, shapeCast_self]
  congr 1
  refine Finset.sum_congr rfl fun f _ => ?_
  rw [plain_matmul _ plain_arow_h arow h 0 f]

/-- What the body stores, at its one entry: the head applied to the rectified fourth layer's row at the last node. -/
theorem pay1_apply (v1 : FVec Ideal S512x512 .bf16) (v31 : FVec Ideal S512x64 .f32) (v37 : Vec Ideal S64x64 .f32) (v39 : Vec Ideal S1x64 .f32)
    (v44 : Vec Ideal S64x1 .f32) (v46 : Vec Ideal S1x1 .f32) (u0 u1 u2 : Fin 1) :
    k0_pay1 v1 v31 (Scalar.ofBits (F := Ideal) .f32 0x00000000#32) v37 v39 v44 v46 (ix3 u0 u1 u2)
      = Gcn.outPruned (mat v1) (Gcn.relu (mat v31)) (mat v37) (row v39) (col v44) (v46 (ix2 0 0)) (511 : Fin 512) := by
  obtain rfl : u1 = 0 := Subsingleton.elim _ _
  obtain rfl : u2 = 0 := Subsingleton.elim _ _
  unfold k0_pay1
  rw [shapeCast_ab_1ab_apply, addf_apply, plain_matmul _ plain_h4_wf _ v44 0 0, shapeCast_self v46]
  unfold Gcn.outPruned Gcn.head
  congr 1
  refine Finset.sum_congr rfl fun j _ => ?_
  rw [maximumf_apply, broadcast_apply]
  have e := congrFun (row_preRow (extf .f32 (extractStridedSlice S1x512 ![511, 0] v1 slices_S512x512_o511_0_S1x512) bitsLt_bf16_f32)
      (maximumf v31 (broadcast S512x64 (Scalar.ofBits (F := Ideal) .f32 0x00000000#32))) v37 v39) j
  rw [row_lastRow, mat_relu] at e
  show max _ (Ideal.ofBits .f32 0x00000000#32) * _ = _
  rw [Ideal.ofBits_zero_f32]
  exact congrArg (fun t => max t 0 * v44 (ix2 j 0)) e

end Cert.KernelIdeal.Body

end
-- ==== Proof.KernelValue.lean ====
/-
  What the kernel's run leaves in its result, as a function of the argument arrays.

  Grid point t works on graph t: its blocks of the features and of the adjacency array are graph t's matrices (the adjacency
  array first converted to bf16 by the host, which at the extended reals changes nothing), and every other window is a whole
  weight or bias array (each bias first recast by the host as one row). The body's one store is the network's output for
  that graph (KernelBody), written back as entry (t, 0, 0) of the [8, 1, 1] result; the eight blocks cover it. The host then
  recasts the result as [8, 1].
-/
import proofs.«153388_g68341519614684_cont_sun_c4_778_10_alg».proof.Proof.Gen.KernelIdeal.Frame
import proofs.«153388_g68341519614684_cont_sun_c4_778_10_alg».proof.Proof.KernelBody
import Idealize.ShloMosaic.Lib.Pipeline.Value
import Idealize.ShloMosaic.Lib.StableHlo.Run
import Idealize.ShloMosaic.Lib.ValueLayout

set_option maxRecDepth 16384

noncomputable section

namespace Cert.KernelIdeal.Hand

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)
open Gcn (mat row col blk slab vec)

variable (m : (ℓ : Loc nD τ sig) → Buf (Elt Ideal) ℓ) (ρ : Dev nD → PrngReg)

/-! ## The arrays the region finds -/

/-- The adjacency array as the region finds it: the host's conversion to bf16 of the argument, which at the extended
    reals is the argument. -/
theorem V_adj (c : Dev nD) : (V m c main_v0 : S8x512x512.Idx → EReal)
    = (m ((c : Thread nD τ).loc main_arg1) : S8x512x512.Idx → EReal) := by
  show StableHlo.after hostOps0 (fun b => m (c, b)) (Proc.devRef .tc main_v0) = _
  after_results
  rfl

/-- A bias as the region finds it: the host's recast of the argument as one row. -/
theorem V_b1 (c : Dev nD) : (V m c main_v1 : S1x64.Idx → EReal)
    = shapeCast S1x64 (m ((c : Thread nD τ).loc main_arg3) : S64.Idx → EReal) shapeCasts_S64_S1x64 := by
  show StableHlo.after hostOps0 (fun b => m (c, b)) (Proc.devRef .tc main_v1) = _
  after_results
  rfl
theorem V_b2 (c : Dev nD) : (V m c main_v2 : S1x64.Idx → EReal)
    = shapeCast S1x64 (m ((c : Thread nD τ).loc main_arg5) : S64.Idx → EReal) shapeCasts_S64_S1x64 := by
  show StableHlo.after hostOps0 (fun b => m (c, b)) (Proc.devRef .tc main_v2) = _
  after_results
  rfl
theorem V_b3 (c : Dev nD) : (V m c main_v3 : S1x64.Idx → EReal)
    = shapeCast S1x64 (m ((c : Thread nD τ).loc main_arg7) : S64.Idx → EReal) shapeCasts_S64_S1x64 := by
  show StableHlo.after hostOps0 (fun b => m (c, b)) (Proc.devRef .tc main_v3) = _
  after_results
  rfl
theorem V_b4 (c : Dev nD) : (V m c main_v4 : S1x64.Idx → EReal)
    = shapeCast S1x64 (m ((c : Thread nD τ).loc main_arg9) : S64.Idx → EReal) shapeCasts_S64_S1x64 := by
  show StableHlo.after hostOps0 (fun b => m (c, b)) (Proc.devRef .tc main_v4) = _
  after_results
  rfl
theorem V_bf (c : Dev nD) : (V m c main_v5 : S1x1.Idx → EReal)
    = shapeCast S1x1 (m ((c : Thread nD τ).loc main_arg11) : S1.Idx → EReal) shapeCasts_S1_S1x1 := by
  show StableHlo.after hostOps0 (fun b => m (c, b)) (Proc.devRef .tc main_v5) = _
  after_results
  rfl

/-! ## The windows' blocks -/

/-- The graph grid point `t` works on. -/
def graphOf (t : Fin cfg0.N) : Fin 8 := ⟨t.val, by have h : cfg0.N = 8 := N_0; have := t.isLt; omega⟩

theorem idx_feat : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_adj : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx_out : ∀ t : Fin cfg0.N, win0_12.index t 0 = t.val ∧ win0_12.index t 1 = 0 ∧ win0_12.index t 2 = 0 :=
  (by decide +kernel : ∀ t : Fin grid0.N, win0_12.index t 0 = t.val ∧ win0_12.index t 1 = 0 ∧ win0_12.index t 2 = 0)

/-- Point `t`'s block of the features is graph `t`'s feature matrix. -/
theorem blk_feat (c : Dev nD) (t : Fin cfg0.N) :
    blk (iblk m c 0 t : Vec Ideal S1x512x256 .f32) = slab (m ((c : Thread nD τ).loc main_arg0) : S8x512x256.Idx → EReal) (graphOf t) := by
  obtain ⟨e0, e1, e2⟩ := idx_feat t
  funext n f
  unfold blk slab iblk
  rw [View.read_apply]
  show V m c main_arg0 _ = _
  rw [V_main_arg0]
  refine congrArg _ (funext fun a => Fin.ext ?_)
  match a with
  | ⟨0, _⟩ => show win0_0.index t 0 * 1 + 1 * 0 = t.val; omega
  | ⟨1, _⟩ => show win0_0.index t 1 * 512 + 1 * n.val = n.val; omega
  | ⟨2, _⟩ => show win0_0.index t 2 * 256 + 1 * f.val = f.val; omega

/-- Point `t`'s block of the adjacency array is graph `t`'s adjacency matrix. -/
theorem blk_adj (c : Dev nD) (t : Fin cfg0.N) :
    blk (iblk m c 1 t : Vec Ideal S1x512x512 .bf16) = slab (m ((c : Thread nD τ).loc main_arg1) : S8x512x512.Idx → EReal) (graphOf t) := by
  obtain ⟨e0, e1, e2⟩ := idx_adj t
  funext n k
  unfold blk slab iblk
  rw [View.read_apply]
  show V m c main_v0 _ = _
  rw [V_adj]
  refine congrArg _ (funext fun a => Fin.ext ?_)
  match a with
  | ⟨0, _⟩ => show win0_1.index t 0 * 1 + 1 * 0 = t.val; omega
  | ⟨1, _⟩ => show win0_1.index t 1 * 512 + 1 * n.val = n.val; omega
  | ⟨2, _⟩ => show win0_1.index t 2 * 512 + 1 * k.val = k.val; omega

/-! ## The weights and biases: every point sees the whole array -/

theorem idx_const : ∀ t : Fin cfg0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0) :=
  (by decide +kernel : ∀ t : Fin grid0.N, (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) ∧ (win0_9.index t 0 = 0 ∧ win0_9.index t 1 = 0)
    ∧ (win0_10.index t 0 = 0 ∧ win0_10.index t 1 = 0) ∧ (win0_11.index t 0 = 0 ∧ win0_11.index t 1 = 0))

theorem mat_w2 (c : Dev nD) (t : Fin cfg0.N) :
    mat (iblk m c 2 t : Vec Ideal S256x64 .f32) = mat (m ((c : Thread nD τ).loc main_arg2) : S256x64.Idx → EReal) := by
  obtain ⟨h2, h3, h4, h5, h6, h7, h8, h9, h10, h11⟩ := idx_const t
  funext f o
  unfold mat iblk
  rw [View.read_apply]
  show V m c main_arg2 _ = _
  rw [V_main_arg2]
  refine congrArg _ (funext fun a => Fin.ext ?_)
  match a with
  | ⟨0, _⟩ => show win0_2.index t 0 * 256 + 1 * f.val = f.val; rw [h2.1]; omega
  | ⟨1, _⟩ => show win0_2.index t 1 * 64 + 1 * o.val = o.val; rw [h2.2]; omega

theorem mat_w4 (c : Dev nD) (t : Fin cfg0.N) :
    mat (iblk m c 4 t : Vec Ideal S64x64 .f32) = mat (m ((c : Thread nD τ).loc main_arg4) : S64x64.Idx → EReal) := by
  obtain ⟨h2, h3, h4, h5, h6, h7, h8, h9, h10, h11⟩ := idx_const t
  funext f o
  unfold mat iblk
  rw [View.read_apply]
  show V m c main_arg4 _ = _
  rw [V_main_arg4]
  refine congrArg _ (funext fun a => Fin.ext ?_)
  match a with
  | ⟨0, _⟩ => show win0_4.index t 0 * 64 + 1 * f.val = f.val; rw [h4.1]; omega
  | ⟨1, _⟩ => show win0_4.index t 1 * 64 + 1 * o.val = o.val; rw [h4.2]; omega

theorem mat_w6 (c : Dev nD) (t : Fin cfg0.N) :
    mat (iblk m c 6 t : Vec Ideal S64x64 .f32) = mat (m ((c : Thread nD τ).loc main_arg6) : S64x64.Idx → EReal) := by
  obtain ⟨h2, h3, h4, h5, h6, h7, h8, h9, h10, h11⟩ := idx_const t
  funext f o
  unfold mat iblk
  rw [View.read_apply]
  show V m c main_arg6 _ = _
  rw [V_main_arg6]
  refine congrArg _ (funext fun a => Fin.ext ?_)
  match a with
  | ⟨0, _⟩ => show win0_6.index t 0 * 64 + 1 * f.val = f.val; rw [h6.1]; omega
  | ⟨1, _⟩ => show win0_6.index t 1 * 64 + 1 * o.val = o.val; rw [h6.2]; omega

theorem mat_w8 (c : Dev nD) (t : Fin cfg0.N) :
    mat (iblk m c 8 t : Vec Ideal S64x64 .f32) = mat (m ((c : Thread nD τ).loc main_arg8) : S64x64.Idx → EReal) := by
  obtain ⟨h2, h3, h4, h5, h6, h7, h8, h9, h10, h11⟩ := idx_const t
  funext f o
  unfold mat iblk
  rw [View.read_apply]
  show V m c main_arg8 _ = _
  rw [V_main_arg8]
  refine congrArg _ (funext fun a => Fin.ext ?_)
  match a with
  | ⟨0, _⟩ => show win0_8.index t 0 * 64 + 1 * f.val = f.val; rw [h8.1]; omega
  | ⟨1, _⟩ => show win0_8.index t 1 * 64 + 1 * o.val = o.val; rw [h8.2]; omega

theorem row_b3 (c : Dev nD) (t : Fin cfg0.N) :
    row (iblk m c 3 t : Vec Ideal S1x64 .f32) = vec (m ((c : Thread nD τ).loc main_arg3) : S64.Idx → EReal) := by
  obtain ⟨h2, h3, h4, h5, h6, h7, h8, h9, h10, h11⟩ := idx_const t
  funext o
  unfold row vec iblk
  rw [View.read_apply]
  show V m c main_v1 _ = _
  rw [V_b1]
  refine (congrArg _ (funext fun a => Fin.ext ?_)).trans (shapeCast_a_1a_apply _ _ (0 : Fin 1) o)
  match a with
  | ⟨0, _⟩ => show win0_3.index t 0 * 1 + 1 * 0 = 0; rw [h3.1]
  | ⟨1, _⟩ => show win0_3.index t 1 * 64 + 1 * o.val = o.val; rw [h3.2]; omega

theorem row_b5 (c : Dev nD) (t : Fin cfg0.N) :
    row (iblk m c 5 t : Vec Ideal S1x64 .f32) = vec (m ((c : Thread nD τ).loc main_arg5) : S64.Idx → EReal) := by
  obtain ⟨h2, h3, h4, h5, h6, h7, h8, h9, h10, h11⟩ := idx_const t
  funext o
  unfold row vec iblk
  rw [View.read_apply]
  show V m c main_v2 _ = _
  rw [V_b2]
  refine (congrArg _ (funext fun a => Fin.ext ?_)).trans (shapeCast_a_1a_apply _ _ (0 : Fin 1) o)
  match a with
  | ⟨0, _⟩ => show win0_5.index t 0 * 1 + 1 * 0 = 0; rw [h5.1]
  | ⟨1, _⟩ => show win0_5.index t 1 * 64 + 1 * o.val = o.val; rw [h5.2]; omega

theorem row_b7 (c : Dev nD) (t : Fin cfg0.N) :
    row (iblk m c 7 t : Vec Ideal S1x64 .f32) = vec (m ((c : Thread nD τ).loc main_arg7) : S64.Idx → EReal) := by
  obtain ⟨h2, h3, h4, h5, h6, h7, h8, h9, h10, h11⟩ := idx_const t
  funext o
  unfold row vec iblk
  rw [View.read_apply]
  show V m c main_v3 _ = _
  rw [V_b3]
  refine (congrArg _ (funext fun a => Fin.ext ?_)).trans (shapeCast_a_1a_apply _ _ (0 : Fin 1) o)
  match a with
  | ⟨0, _⟩ => show win0_7.index t 0 * 1 + 1 * 0 = 0; rw [h7.1]
  | ⟨1, _⟩ => show win0_7.index t 1 * 64 + 1 * o.val = o.val; rw [h7.2]; omega

theorem row_b9 (c : Dev nD) (t : Fin cfg0.N) :
    row (iblk m c 9 t : Vec Ideal S1x64 .f32) = vec (m ((c : Thread nD τ).loc main_arg9) : S64.Idx → EReal) := by
  obtain ⟨h2, h3, h4, h5, h6, h7, h8, h9, h10, h11⟩ := idx_const t
  funext o
  unfold row vec iblk
  rw [View.read_apply]
  show V m c main_v4 _ = _
  rw [V_b4]
  refine (congrArg _ (funext fun a => Fin.ext ?_)).trans (shapeCast_a_1a_apply _ _ (0 : Fin 1) o)
  match a with
  | ⟨0, _⟩ => show win0_9.index t 0 * 1 + 1 * 0 = 0; rw [h9.1]
  | ⟨1, _⟩ => show win0_9.index t 1 * 64 + 1 * o.val = o.val; rw [h9.2]; omega

theorem col_wf (c : Dev nD) (t : Fin cfg0.N) :
    col (iblk m c 10 t : Vec Ideal S64x1 .f32) = col (m ((c : Thread nD τ).loc main_arg10) : S64x1.Idx → EReal) := by
  obtain ⟨h2, h3, h4, h5, h6, h7, h8, h9, h10, h11⟩ := idx_const t
  funext j
  unfold col iblk
  rw [View.read_apply]
  show V m c main_arg10 _ = _
  rw [V_main_arg10]
  refine congrArg _ (funext fun a => Fin.ext ?_)
  match a with
  | ⟨0, _⟩ => show win0_10.index t 0 * 64 + 1 * j.val = j.val; rw [h10.1]; omega
  | ⟨1, _⟩ => show win0_10.index t 1 * 1 + 1 * 0 = 0; rw [h10.2]

theorem at_bf (c : Dev nD) (t : Fin cfg0.N) :
    (iblk m c 11 t : Vec Ideal S1x1 .f32) (ix2 0 0) = (m ((c : Thread nD τ).loc main_arg11) : S1.Idx → EReal) (ix1 0) := by
  obtain ⟨h2, h3, h4, h5, h6, h7, h8, h9, h10, h11⟩ := idx_const t
  unfold iblk
  rw [View.read_apply]
  show V m c main_v5 _ = _
  rw [V_bf]
  refine (congrArg _ (funext fun a => Fin.ext ?_)).trans (shapeCast_a_1a_apply _ _ (0 : Fin 1) (0 : Fin 1))
  match a with
  | ⟨0, _⟩ => show win0_11.index t 0 * 1 + 1 * 0 = 0; rw [h11.1]
  | ⟨1, _⟩ => show win0_11.index t 1 * 1 + 1 * 0 = 0; rw [h11.2]

/-! ## What a point writes back -/

theorem hz3 : (![0, 0, 0] : Fin 3 → Nat) = fun _ => 0 := funext fun a => by fin_cases a <;> rfl
theorem hz2 : (![0, 0] : Fin 2 → Nat) = fun _ => 0 := funext fun a => by fin_cases a <;> rfl

/-- The body's result from its input blocks: the network's output over the blocks read as matrices. -/
theorem out_blocks (x0 : Vec Ideal S1x512x256 .f32) (x1 : Vec Ideal S1x512x512 .bf16) (x2 : Vec Ideal S256x64 .f32) (x3 : Vec Ideal S1x64 .f32)
    (x4 : Vec Ideal S64x64 .f32) (x5 : Vec Ideal S1x64 .f32) (x6 : Vec Ideal S64x64 .f32) (x7 : Vec Ideal S1x64 .f32) (x8 : Vec Ideal S64x64 .f32)
    (x9 : Vec Ideal S1x64 .f32) (x10 : Vec Ideal S64x1 .f32) (x11 : Vec Ideal S1x1 .f32) (j : S1x1x1.Idx) :
    out0_12 x0 x1 x2 x3 x4 x5 x6 x7 x8 x9 x10 x11 j
      = Gcn.outPruned (blk x1) (Gcn.hidden (blk x1) (blk x0) (mat x2) (row x3) (mat x4) (row x5) (mat x6) (row x7)) (mat x8) (row x9)
          (col x10) (x11 (ix2 0 0)) (511 : Fin 512) := by
  obtain ⟨u0, u1, u2, rfl⟩ : ∃ (u0 u1 u2 : Fin 1), j = ix3 u0 u1 u2 := ⟨j 0, j 1, j 2, eq_ix3 j⟩
  unfold out0_12
  rw [View.canon_unit_zero hz3]
  simp only [View.ld_unit_zero (S := S1x512x512) hz3, View.ld_unit_zero (S := S1x512x256) hz3, View.ld_unit_zero (S := S256x64) hz2,
    View.ld_unit_zero (S := S1x64) hz2, View.ld_unit_zero (S := S64x64) hz2, View.ld_unit_zero (S := S64x1) hz2,
    View.ld_unit_zero (S := S1x1) hz2]
  rw [pay1_apply, mat_pay2, mat_pay3]
  rfl

/-- Graph `g`'s output as a function of the argument arrays at launch. -/
def net (c : Dev nD) (g : Fin 8) : EReal :=
  Gcn.netPruned (m ((c : Thread nD τ).loc main_arg0) : S8x512x256.Idx → EReal) (m ((c : Thread nD τ).loc main_arg1) : S8x512x512.Idx → EReal)
    (m ((c : Thread nD τ).loc main_arg2) : S256x64.Idx → EReal) (m ((c : Thread nD τ).loc main_arg3) : S64.Idx → EReal)
    (m ((c : Thread nD τ).loc main_arg4) : S64x64.Idx → EReal) (m ((c : Thread nD τ).loc main_arg5) : S64.Idx → EReal)
    (m ((c : Thread nD τ).loc main_arg6) : S64x64.Idx → EReal) (m ((c : Thread nD τ).loc main_arg7) : S64.Idx → EReal)
    (m ((c : Thread nD τ).loc main_arg8) : S64x64.Idx → EReal) (m ((c : Thread nD τ).loc main_arg9) : S64.Idx → EReal)
    (m ((c : Thread nD τ).loc main_arg10) : S64x1.Idx → EReal) (m ((c : Thread nD τ).loc main_arg11) : S1.Idx → EReal) g

/-- The [8, 1, 1] result array: entry (g, 0, 0) is graph `g`'s output. -/
def resultArr (c : Dev nD) : S8x1x1.Idx → EReal := fun i => net m c (i 0)

/-- What point `t` writes back is block `t` of the result array. -/
theorem flushed_eq (c : Dev nD) (t : Fin cfg0.N) :
    (dats m 0 c).flushed 12 t = ((cfg0.win 12).blk t).view.read (Elt Ideal) (resultArr m c) := by
  obtain ⟨e0, e1, e2⟩ := idx_out t
  show (cfg0.win 12).cut (grid0.coords t) ((dats m 0 c).after 12 t) = _
  rw [after0_12]
  funext j
  show out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) j = resultArr m c (((cfg0.win 12).blk t).view.emb j)
  refine (out_blocks (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) j).trans ?_
  rw [blk_adj, blk_feat, mat_w2, row_b3, mat_w4, row_b5, mat_w6, row_b7, mat_w8, row_b9, col_wf, at_bf]
  have hj0 : (j 0).val < 1 := (j 0).isLt
  have hg : ((cfg0.win 12).blk t).view.emb j 0 = graphOf t := Fin.ext (by
    show win0_12.index t 0 * 1 + 1 * (j 0).val = t.val
    omega)
  unfold resultArr
  rw [hg]
  rfl

/-- Every entry of the result array is in some point's block: entry (g, 0, 0) in point g's. -/
theorem cover (c : Dev nD) (i : S8x1x1.Idx) :
    ∃ t : Fin cfg0.N, (cfg0.win 12).flush t = true ∧ i ∈ ((cfg0.win 12).blk t).view.set := by
  have hN : cfg0.N = 8 := N_0
  have h0 : (i 0).val < 8 := (i 0).isLt
  have h1 : (i 1).val < 1 := (i 1).isLt
  have h2 : (i 2).val < 1 := (i 2).isLt
  obtain ⟨t, ht⟩ : ∃ t : Fin cfg0.N, t.val = (i 0).val := ⟨⟨(i 0).val, by omega⟩, rfl⟩
  obtain ⟨e0, e1, e2⟩ := idx_out t
  refine ⟨t, flush0_12 t, ?_⟩
  show i ∈ ((View.whole main_v6).slice (win0_12.rect t)).set
  rw [View.set_slice_whole, Rect.mem_set_unit]
  intro a
  match a with
  | ⟨0, _⟩ =>
    show win0_12.index t 0 * 1 ≤ (i 0).val ∧ (i 0).val < win0_12.index t 0 * 1 + 1
    omega
  | ⟨1, _⟩ =>
    show win0_12.index t 1 * 1 ≤ (i 1).val ∧ (i 1).val < win0_12.index t 1 * 1 + 1
    omega
  | ⟨2, _⟩ =>
    show win0_12.index t 2 * 1 ≤ (i 2).val ∧ (i 2).val < win0_12.index t 2 * 1 + 1
    omega

/-- The result array after the region. -/
theorem final (c : Dev nD) : (dats m 0 c).arrAt 12 cfg0.N = resultArr m c :=
  (dats m 0 c).arrAt_eq_of_cover 12 (resultArr m c) (fun t _ => flushed_eq m c t) (cover c)

/-! ## The host's recast of the result, and the run -/

/-- The [8, 1] result: entry (g, 0) is graph `g`'s output. -/
def result (c : Dev nD) : S8x1.Idx → EReal := fun i => net m c (i 0)

/-- After the region the host recasts the [8, 1, 1] result array as [8, 1]: entry (g, 0) is entry (g, 0, 0). -/
theorem tail_eq (c : Dev nD) :
    (Pipeline.afterTail₀ cfgs (dats m) 0 (V0 m) [hostOps1] c main_v7 : S8x1.Idx → EReal) = result m c := by
  have hA : Pipeline.withArrays (cfgs 0).spec c (V0 m c) (fun w => (dats m 0 c).arrAt w (cfgs 0).N) (Proc.devRef .tc main_v6)
      = resultArr m c :=
    (Pipeline.withArrays_arr spec0 launch0.win.arr_inj c _ _ 12).trans (final m c)
  unfold Pipeline.afterTail₀
  show StableHlo.after hostOps1 _ (Proc.devRef .tc main_v7) = _
  after_results
  funext i
  obtain ⟨g, u, rfl⟩ : ∃ (g : Fin 8) (u : Fin 1), i = ix2 g u := ⟨i 0, i 1, eq_ix2 i⟩
  show shapeCast S8x1 (Pipeline.withArrays (cfgs 0).spec c (V0 m c) (fun w => (dats m 0 c).arrAt w (cfgs 0).N) (Proc.devRef .tc main_v6))
      shapeCasts_S8x1x1_S8x1 (ix2 g u) = _
  rw [hA]
  refine (shapeCast_apply (resultArr m c) _ (ix2 g u) (ix3 g 0 0) ?_).trans rfl
  rw [Shape.rowMajor_val_three, Shape.rowMajor_val_two]
  have hu : u.val = 0 := by omega
  show (g.val * 1 + 0) * 1 + 0 = g.val * 1 + u.val
  omega

/-- The run, read: the result ends at the network's output per graph, the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c))),
      (((h c).2 main_arg11 (Pipeline.mem_restRefs_of main_arg11 (by decide) (by decide))).trans (W_main_arg11 m (dats m) c))⟩)
    (run_main m ρ)

end Cert.KernelIdeal.Hand

end
-- ==== Proof.RefValue.lean ====
/-
  What the reference computes, as a function of the argument arrays.

  The reference runs the four rectified graph-convolution layers on all eight graphs at once — features times weights (a
  product contracting the feature axis), adjacency times that (a product batched over the graphs), plus the bias spread
  over graphs and nodes, maximum with zero —, cuts node 511 out of the fourth layer, and applies the final linear head.
  Read at graph g, node n and feature o, each layer is Gcn.pre / Gcn.relu of graph g's matrices; the result at graph g is
  Gcn.netFull.
-/
import proofs.«153388_g68341519614684_cont_sun_c4_778_10_alg».proof.Proof.Gen.ReferenceIdeal.Read
import proofs.«153388_g68341519614684_cont_sun_c4_778_10_alg».proof.Proof.GcnArrays

noncomputable section

namespace Cert.ReferenceIdeal.Hand

open Cert.ReferenceIdeal Cert.ReferenceIdeal.Read Idealize.ShloMosaic Idealize.ShloMosaic.ValueIdx
open Gcn (mat slab vec col)

variable (x0 : S8x512x256.Idx → EReal) (x1 : S8x512x512.Idx → EReal) (x2 : S256x64.Idx → EReal) (x3 : S64.Idx → EReal) (x4 : S64x64.Idx → EReal) (x5 : S64.Idx → EReal) (x6 : S64x64.Idx → EReal) (x7 : S64.Idx → EReal) (x8 : S64x64.Idx → EReal) (x9 : S64.Idx → EReal) (x10 : S64x1.Idx → EReal) (x11 : S1.Idx → EReal)

/-- The zero constant spread over a layer. -/
theorem zero0 (i : S8x512x64.Idx) : val_main_call0_v0 (F := Ideal) i = 0 := by
  rw [val_main_call0_v0_apply, val_main_call0_cst_apply]; exact Ideal.ofBits_zero_f32
theorem zero1 (i : S8x512x64.Idx) : val_main_call1_v0 (F := Ideal) i = 0 := by
  rw [val_main_call1_v0_apply, val_main_call1_cst_apply]; exact Ideal.ofBits_zero_f32
theorem zero2 (i : S8x512x64.Idx) : val_main_call2_v0 (F := Ideal) i = 0 := by
  rw [val_main_call2_v0_apply, val_main_call2_cst_apply]; exact Ideal.ofBits_zero_f32
theorem zero3 (i : S8x512x64.Idx) : val_main_call3_v0 (F := Ideal) i = 0 := by
  rw [val_main_call3_v0_apply, val_main_call3_cst_apply]; exact Ideal.ofBits_zero_f32

/-! ## The biases spread over graphs and nodes -/

theorem bias1 (g : Fin 8) (n : Fin 512) (o : Fin 64) : val_main_v3 (F := Ideal) x3 (ix3 g n o) = vec x3 o := by
  rw [val_main_v3_apply, val_main_v2_apply]
  exact congrArg x3 (funext fun a => match a with | ⟨0, _⟩ => rfl)

theorem bias2 (g : Fin 8) (n : Fin 512) (o : Fin 64) : val_main_v9 (F := Ideal) x5 (ix3 g n o) = vec x5 o := by
  rw [val_main_v9_apply, val_main_v8_apply]
  exact congrArg x5 (funext fun a => match a with | ⟨0, _⟩ => rfl)

theorem bias3 (g : Fin 8) (n : Fin 512) (o : Fin 64) : val_main_v15 (F := Ideal) x7 (ix3 g n o) = vec x7 o := by
  rw [val_main_v15_apply, val_main_v14_apply]
  exact congrArg x7 (funext fun a => match a with | ⟨0, _⟩ => rfl)

theorem bias4 (g : Fin 8) (n : Fin 512) (o : Fin 64) : val_main_v21 (F := Ideal) x9 (ix3 g n o) = vec x9 o := by
  rw [val_main_v21_apply, val_main_v20_apply]
  exact congrArg x9 (funext fun a => match a with | ⟨0, _⟩ => rfl)

/-! ## The layers -/

/-- The first layer before its rectifier. -/
theorem pre1 (g : Fin 8) (n : Fin 512) (o : Fin 64) :
    val_main_v4 (F := Ideal) x0 x1 x2 x3 (ix3 g n o) = Gcn.pre (slab x1 g) (slab x0 g) (mat x2) (vec x3) n o := by
  rw [val_main_v4_apply, val_main_v1_apply, bias1]
  unfold Gcn.pre
  show _ + _ = _
  congr 1
  refine Finset.sum_congr rfl fun k _ => ?_
  rw [val_main_v0_apply]
  have e1 : lidx_main_v1 (ix3 g n o) k = ix3 g n k := funext fun a => match a with | ⟨0, _⟩ => rfl | ⟨1, _⟩ => rfl | ⟨2, _⟩ => rfl
  have e2 : ∀ f, lidx_main_v0 (ridx_main_v1 (ix3 g n o) k) f = ix3 g k f := fun f => funext fun a => match a with | ⟨0, _⟩ => rfl | ⟨1, _⟩ => rfl | ⟨2, _⟩ => rfl
  have e3 : ∀ f, ridx_main_v0 (ridx_main_v1 (ix3 g n o) k) f = ix2 f o := fun f => funext fun a => match a with | ⟨0, _⟩ => rfl | ⟨1, _⟩ => rfl
  simp only [e1, e2, e3]
  rfl

theorem act1 (g : Fin 8) (n : Fin 512) (o : Fin 64) :
    val_main_v5 (F := Ideal) x0 x1 x2 x3 (ix3 g n o) = Gcn.relu (Gcn.pre (slab x1 g) (slab x0 g) (mat x2) (vec x3)) n o := by
  rw [val_main_v5_apply, pre1, zero0]
  rfl

/-- Layer 2 before its rectifier, over the rectified layer before it. -/
theorem pre2 (g : Fin 8) (n : Fin 512) (o : Fin 64) :
    val_main_v10 (F := Ideal) x0 x1 x2 x3 x4 x5 (ix3 g n o) = Gcn.pre (slab x1 g) (Gcn.relu (Gcn.pre (slab x1 g) (slab x0 g) (mat x2) (vec x3))) (mat x4) (vec x5) n o := by
  rw [val_main_v10_apply, val_main_v7_apply, bias2]
  unfold Gcn.pre
  show _ + _ = _
  congr 1
  refine Finset.sum_congr rfl fun k _ => ?_
  rw [val_main_v6_apply]
  have e1 : lidx_main_v7 (ix3 g n o) k = ix3 g n k := funext fun a => match a with | ⟨0, _⟩ => rfl | ⟨1, _⟩ => rfl | ⟨2, _⟩ => rfl
  have e2 : ∀ f, lidx_main_v6 (ridx_main_v7 (ix3 g n o) k) f = ix3 g k f := fun f => funext fun a => match a with | ⟨0, _⟩ => rfl | ⟨1, _⟩ => rfl | ⟨2, _⟩ => rfl
  have e3 : ∀ f, ridx_main_v6 (ridx_main_v7 (ix3 g n o) k) f = ix2 f o := fun f => funext fun a => match a with | ⟨0, _⟩ => rfl | ⟨1, _⟩ => rfl
  simp only [e1, e2, e3, act1]
  rfl

theorem act2 (g : Fin 8) (n : Fin 512) (o : Fin 64) :
    val_main_v11 (F := Ideal) x0 x1 x2 x3 x4 x5 (ix3 g n o) = Gcn.relu (Gcn.pre (slab x1 g) (Gcn.relu (Gcn.pre (slab x1 g) (slab x0 g) (mat x2) (vec x3))) (mat x4) (vec x5)) n o := by
  rw [val_main_v11_apply, pre2, zero1]
  rfl

/-- Layer 3 before its rectifier, over the rectified layer before it. -/
theorem pre3 (g : Fin 8) (n : Fin 512) (o : Fin 64) :
    val_main_v16 (F := Ideal) x0 x1 x2 x3 x4 x5 x6 x7 (ix3 g n o) = Gcn.pre (slab x1 g) (Gcn.relu (Gcn.pre (slab x1 g) (Gcn.relu (Gcn.pre (slab x1 g) (slab x0 g) (mat x2) (vec x3))) (mat x4) (vec x5))) (mat x6) (vec x7) n o := by
  rw [val_main_v16_apply, val_main_v13_apply, bias3]
  unfold Gcn.pre
  show _ + _ = _
  congr 1
  refine Finset.sum_congr rfl fun k _ => ?_
  rw [val_main_v12_apply]
  have e1 : lidx_main_v13 (ix3 g n o) k = ix3 g n k := funext fun a => match a with | ⟨0, _⟩ => rfl | ⟨1, _⟩ => rfl | ⟨2, _⟩ => rfl
  have e2 : ∀ f, lidx_main_v12 (ridx_main_v13 (ix3 g n o) k) f = ix3 g k f := fun f => funext fun a => match a with | ⟨0, _⟩ => rfl | ⟨1, _⟩ => rfl | ⟨2, _⟩ => rfl
  have e3 : ∀ f, ridx_main_v12 (ridx_main_v13 (ix3 g n o) k) f = ix2 f o := fun f => funext fun a => match a with | ⟨0, _⟩ => rfl | ⟨1, _⟩ => rfl
  simp only [e1, e2, e3, act2]
  rfl

theorem act3 (g : Fin 8) (n : Fin 512) (o : Fin 64) :
    val_main_v17 (F := Ideal) x0 x1 x2 x3 x4 x5 x6 x7 (ix3 g n o) = Gcn.relu (Gcn.pre (slab x1 g) (Gcn.relu (Gcn.pre (slab x1 g) (Gcn.relu (Gcn.pre (slab x1 g) (slab x0 g) (mat x2) (vec x3))) (mat x4) (vec x5))) (mat x6) (vec x7)) n o := by
  rw [val_main_v17_apply, pre3, zero2]
  rfl

/-- Layer 4 before its rectifier, over the rectified layer before it. -/
theorem pre4 (g : Fin 8) (n : Fin 512) (o : Fin 64) :
    val_main_v22 (F := Ideal) x0 x1 x2 x3 x4 x5 x6 x7 x8 x9 (ix3 g n o) = Gcn.pre (slab x1 g) (Gcn.relu (Gcn.pre (slab x1 g) (Gcn.relu (Gcn.pre (slab x1 g) (Gcn.relu (Gcn.pre (slab x1 g) (slab x0 g) (mat x2) (vec x3))) (mat x4) (vec x5))) (mat x6) (vec x7))) (mat x8) (vec x9) n o := by
  rw [val_main_v22_apply, val_main_v19_apply, bias4]
  unfold Gcn.pre
  show _ + _ = _
  congr 1
  refine Finset.sum_congr rfl fun k _ => ?_
  rw [val_main_v18_apply]
  have e1 : lidx_main_v19 (ix3 g n o) k = ix3 g n k := funext fun a => match a with | ⟨0, _⟩ => rfl | ⟨1, _⟩ => rfl | ⟨2, _⟩ => rfl
  have e2 : ∀ f, lidx_main_v18 (ridx_main_v19 (ix3 g n o) k) f = ix3 g k f := fun f => funext fun a => match a with | ⟨0, _⟩ => rfl | ⟨1, _⟩ => rfl | ⟨2, _⟩ => rfl
  have e3 : ∀ f, ridx_main_v18 (ridx_main_v19 (ix3 g n o) k) f = ix2 f o := fun f => funext fun a => match a with | ⟨0, _⟩ => rfl | ⟨1, _⟩ => rfl
  simp only [e1, e2, e3, act3]
  rfl

theorem act4 (g : Fin 8) (n : Fin 512) (o : Fin 64) :
    val_main_v23 (F := Ideal) x0 x1 x2 x3 x4 x5 x6 x7 x8 x9 (ix3 g n o) = Gcn.relu (Gcn.pre (slab x1 g) (Gcn.relu (Gcn.pre (slab x1 g) (Gcn.relu (Gcn.pre (slab x1 g) (Gcn.relu (Gcn.pre (slab x1 g) (slab x0 g) (mat x2) (vec x3))) (mat x4) (vec x5))) (mat x6) (vec x7))) (mat x8) (vec x9)) n o := by
  rw [val_main_v23_apply, pre4, zero3]
  rfl

/-! ## The last node's row and the head -/

/-- The reference's result at graph `g` is the head applied to the rectified fourth layer's row at node 511. -/
theorem result_apply (g : Fin 8) (u : Fin 1) :
    val_main_v29 (F := Ideal) x0 x1 x2 x3 x4 x5 x6 x7 x8 x9 x10 x11 (ix2 g u) = Gcn.netFull x0 x1 x2 x3 x4 x5 x6 x7 x8 x9 x10 x11 g := by
  obtain rfl : u = 0 := Subsingleton.elim _ _
  rw [val_main_v29_apply, val_main_v26_apply, val_main_v28_apply, val_main_v27_apply]
  unfold Gcn.netFull Gcn.outFull Gcn.head
  show _ + _ = _
  congr 1
  · refine Finset.sum_congr rfl fun j _ => ?_
    rw [val_main_v25_apply, val_main_v24_apply]
    have e1 : idx_main_v24 (idx_main_v25 (lidx_main_v26 (ix2 g 0) j)) = ix3 g (511 : Fin 512) j := funext fun a => Fin.ext (by
      have hg := g.isLt; have hj := j.isLt
      match a with
      | ⟨0, _⟩ => show (g.val * 64 + j.val) / 64 = g.val; omega
      | ⟨1, _⟩ => show 511 + 0 = 511; rfl
      | ⟨2, _⟩ => show (g.val * 64 + j.val) % 64 = j.val; omega)
    have e2 : ridx_main_v26 (ix2 g 0) j = ix2 j (0 : Fin 1) := funext fun a => match a with | ⟨0, _⟩ => rfl | ⟨1, _⟩ => rfl
    rw [e1, e2, act4]
    rfl
  · exact congrArg x11 (funext fun a => match a with | ⟨0, _⟩ => rfl)

end Cert.ReferenceIdeal.Hand

end
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.FiniteArgs.lean ====
/-
  The precondition read back: when `finite_inputs` holds of the twelve argument arrays, every entry of every one of them
  is a real number. The predicate is the conjunction, one argument after another, of `jnp.all(|arg| < inf)`.
-/
import proofs.«153388_g68341519614684_cont_sun_c4_778_10_alg».proof.Pre_finite_inputs
import proofs.«153388_g68341519614684_cont_sun_c4_778_10_alg».proof.Proof.Gen.Pre_finite_inputs
import proofs.«153388_g68341519614684_cont_sun_c4_778_10_alg».proof.Proof.GcnArrays
import proofs.«153388_g68341519614684_cont_sun_c4_778_10_alg».proof.Proof.LibFiniteAll

noncomputable section

namespace Cert.Pre_finite_inputs.Hand

open Cert.Pre_finite_inputs Idealize.ShloMosaic Idealize.ShloMosaic.ValueIdx

theorem args_real (a0 : FVec Ideal S8x512x256 .f32) (a1 : FVec Ideal S8x512x512 .f32) (a2 : FVec Ideal S256x64 .f32)
    (a3 : FVec Ideal S64 .f32) (a4 : FVec Ideal S64x64 .f32) (a5 : FVec Ideal S64 .f32) (a6 : FVec Ideal S64x64 .f32)
    (a7 : FVec Ideal S64 .f32) (a8 : FVec Ideal S64x64 .f32) (a9 : FVec Ideal S64 .f32) (a10 : FVec Ideal S64x1 .f32)
    (a11 : FVec Ideal S1 .f32)
    (h : fn (F := Ideal) a0 a1 a2 a3 a4 a5 a6 a7 a8 a9 a10 a11 = fun _ => 1#1) :
    Gcn.AllReal a0 ∧ Gcn.AllReal a1 ∧ Gcn.AllReal a2 ∧ Gcn.AllReal a3 ∧ Gcn.AllReal a4 ∧ Gcn.AllReal a5 ∧ Gcn.AllReal a6
      ∧ Gcn.AllReal a7 ∧ Gcn.AllReal a8 ∧ Gcn.AllReal a9 ∧ Gcn.AllReal a10 ∧ Gcn.AllReal a11 := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨FiniteAll.all_real a0 _ _ _ ix0 e0, FiniteAll.all_real a1 _ _ _ ix0 e1, FiniteAll.all_real a2 _ _ _ ix0 e2,
    FiniteAll.all_real a3 _ _ _ ix0 e3, FiniteAll.all_real a4 _ _ _ ix0 e4, FiniteAll.all_real a5 _ _ _ ix0 e5,
    FiniteAll.all_real a6 _ _ _ ix0 e6, FiniteAll.all_real a7 _ _ _ ix0 e7, FiniteAll.all_real a8 _ _ _ ix0 e8,
    FiniteAll.all_real a9 _ _ _ ix0 e9, FiniteAll.all_real a10 _ _ _ ix0 e10, FiniteAll.all_real a11 _ _ _ ix0 e11⟩

end Cert.Pre_finite_inputs.Hand

end
-- ==== Proof.lean ====
/-
  The five claims of this certificate.

  The kernel runs a four-layer graph convolutional network with a linear head on eight graphs, one graph per grid point.
  The reference computes all four layers on every node and reads off node 511; the kernel computes three layers fully and
  the fourth at node 511 only, contracting the adjacency row with the hidden features BEFORE multiplying by the fourth
  weights. On the extended reals the two agree when the entries are real numbers — distributivity and the exchange of two
  finite sums (Gcn.sum_mul_sum_exchange) — and the precondition says exactly that of every argument (FiniteArgs); the hidden
  features of real inputs are real (Gcn.hidden_isReal). The three frames are the generated ones (the reference's its
  generated run with the result dropped); nothing was rewritten by the idealization, so `preserves` is trivial.
-/
import proofs.«153388_g68341519614684_cont_sun_c4_778_10_alg».proof.Defs
import proofs.«153388_g68341519614684_cont_sun_c4_778_10_alg».proof.Proof.Gen.Kernel
import proofs.«153388_g68341519614684_cont_sun_c4_778_10_alg».proof.Proof.Gen.Kernel.Skeleton
import proofs.«153388_g68341519614684_cont_sun_c4_778_10_alg».proof.Proof.Gen.Kernel.Launch
import proofs.«153388_g68341519614684_cont_sun_c4_778_10_alg».proof.Proof.Gen.Kernel.Points
import proofs.«153388_g68341519614684_cont_sun_c4_778_10_alg».proof.Proof.Gen.Kernel.Frame
import proofs.«153388_g68341519614684_cont_sun_c4_778_10_alg».proof.Proof.Gen.KernelIdeal
import proofs.«153388_g68341519614684_cont_sun_c4_778_10_alg».proof.Proof.Gen.KernelIdeal.Skeleton
import proofs.«153388_g68341519614684_cont_sun_c4_778_10_alg».proof.Proof.Gen.KernelIdeal.Launch
import proofs.«153388_g68341519614684_cont_sun_c4_778_10_alg».proof.Proof.Gen.KernelIdeal.Points
import proofs.«153388_g68341519614684_cont_sun_c4_778_10_alg».proof.Proof.Gen.KernelIdeal.Frame
import proofs.«153388_g68341519614684_cont_sun_c4_778_10_alg».proof.Proof.Gen.ReferenceIdeal
import proofs.«153388_g68341519614684_cont_sun_c4_778_10_alg».proof.Proof.Gen.Pre_finite_inputs
import proofs.«153388_g68341519614684_cont_sun_c4_778_10_alg».proof.Proof.Gen.ReferenceIdeal.Run
import proofs.«153388_g68341519614684_cont_sun_c4_778_10_alg».proof.Proof.Gen.ReferenceIdeal.Read
import proofs.«153388_g68341519614684_cont_sun_c4_778_10_alg».proof.Proof.KernelValue
import proofs.«153388_g68341519614684_cont_sun_c4_778_10_alg».proof.Proof.RefValue
import proofs.«153388_g68341519614684_cont_sun_c4_778_10_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's output per graph: the kernel's with the fourth layer evaluated at the last node
    only, the reference's read off the whole fourth layer; equal because the arguments are arrays of real numbers. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq]
  obtain ⟨a0, a1, a2, a3, a4, a5, a6, a7, a8, a9, a10, a11⟩ := hagree c
  rw [a0, a1, a2, a3, a4, a5, a6, a7, a8, a9, a10, a11]
  obtain ⟨r0, r1, r2, r3, r4, r5, r6, r7, r8, r9, r10, r11⟩ := Cert.Pre_finite_inputs.Hand.args_real _ _ _ _ _ _ _ _ _ _ _ _ (hpre c)
  funext i
  obtain ⟨g, u, rfl⟩ : ∃ (g : Fin 8) (u : Fin 1), i = ix2 g u := ⟨i 0, i 1, eq_ix2 i⟩
  rw [Cert.ReferenceIdeal.Hand.result_apply]
  exact (Gcn.netPruned_eq_netFull _ _ _ _ _ _ _ _ _ _ _ _ r0 r1 r2 r3 r4 r5 r6 r7 r8 g).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
